-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192 : Shape := ⟨2, ![512, 8192]⟩
abbrev S2x262144 : Shape := ⟨2, ![2, 262144]⟩
abbrev S8192x8192 : Shape := ⟨2, ![8192, 8192]⟩
abbrev S_ : Shape := ⟨0, ![]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S512x8192 .f32) (main_arg1 : IVec S2x262144 32) (main_arg2 : FVec F S8192x8192 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S512x8192 : Shape := ⟨2, ![512, 8192]⟩
abbrev S2x262144 : Shape := ⟨2, ![2, 262144]⟩
abbrev S8192x8192 : Shape := ⟨2, ![8192, 8192]⟩
abbrev S1x262144 : Shape := ⟨2, ![1, 262144]⟩
abbrev S262144 : Shape := ⟨1, ![262144]⟩
abbrev S_ : Shape := ⟨0, ![]⟩
abbrev S8192 : Shape := ⟨1, ![8192]⟩
abbrev S262144x1 : Shape := ⟨2, ![262144, 1]⟩
abbrev S8192x512 : Shape := ⟨2, ![8192, 512]⟩
abbrev S262144x512 : Shape := ⟨2, ![262144, 512]⟩
abbrev S1x8192 : Shape := ⟨2, ![1, 8192]⟩
abbrev S512x512 : Shape := ⟨2, ![512, 512]⟩
abbrev S2048x512 : Shape := ⟨2, ![2048, 512]⟩
abbrev S512x2048 : Shape := ⟨2, ![512, 2048]⟩

abbrev nBuf : Space → Nat
  | .hbm => 35
  | .vmem => 7
  | .smem => 0
  | _ => 0

abbrev bufTy : (tb : Table) → Fin (tcTables nBuf tb) → BufTy
  | .hbm, ⟨0, _⟩ => ⟨S512x8192, .f32⟩
  | .hbm, ⟨1, _⟩ => ⟨S2x262144, .i32⟩
  | .hbm, ⟨2, _⟩ => ⟨S8192x8192, .f32⟩
  | .hbm, ⟨3, _⟩ => ⟨S1x262144, .i32⟩
  | .hbm, ⟨4, _⟩ => ⟨S262144, .i32⟩
  | .hbm, ⟨5, _⟩ => ⟨S1x262144, .i32⟩
  | .hbm, ⟨6, _⟩ => ⟨S262144, .i32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x512, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x512, .f32⟩
  | .hbm, ⟨26, _⟩ => ⟨S_, .f32⟩
  | .hbm, ⟨27, _⟩ => ⟨S8192x512, .f32⟩
  | .hbm, ⟨28, _⟩ => ⟨S262144x1, .i32⟩
  | .hbm, ⟨29, _⟩ => ⟨S8192x512, .f32⟩
  | .hbm, ⟨30, _⟩ => ⟨S512x8192, .f32⟩
  | .hbm, ⟨31, _⟩ => ⟨S1x8192, .f32⟩
  | .hbm, ⟨32, _⟩ => ⟨S512x8192, .f32⟩
  | .hbm, ⟨33, _⟩ => ⟨S512x8192, .f32⟩
  | .hbm, ⟨34, _⟩ => ⟨S512x8192, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  transposes_S512x8192_S8192x512_1_0 : S512x8192.Transposes [1, 0] S8192x512
  bcast_S_S8192x512 : S_.BroadcastsInDim S8192x512 (![] : Fin 0 → Fin S8192x512.rank)
  transposes_S8192x512_S512x8192_1_0 : S8192x512.Transposes [1, 0] S512x8192
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  scatter_S8192_S262144x1_S262144_n_0_0_1_wf : ScatterDims.WF S8192 S262144x1 S262144 [] [0] [0] 1
  gather_S8192x512_S262144x1_S262144x512_1_0_n_n_0_1_1512_wf : GatherDims.WF S8192x512 S262144x1 S262144x512 [1] [0] [] [0] [] 1 ![1, 512]
  scatter_S8192x512_S262144x1_S262144x512_1_0_0_1_wf : ScatterDims.WF S8192x512 S262144x1 S262144x512 [1] [0] [0] 1
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x8192.size a
  hwx0_0 : ∀ i : grid0.Coords, EltTy.bits .f32 = 32 ∨ (Rect.block (s := S512x8192) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x8192.size a
  hwx0_1 : ∀ i : grid0.Coords, EltTy.bits .f32 = 32 ∨ (Rect.block (s := S8192x8192) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S512x8192.size a
  hwx0_2 : ∀ i : grid0.Coords, EltTy.bits .f32 = 32 ∨ (Rect.block (s := S512x8192) S512x2048.size (cc0_transform_2 i) (hinb0_2 i)).WholeWords (EltTy.packing .f32)

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192x512_S262144x1_S262144x512_1_0_n_n_0_1_1512 : GatherDims S8192x512 S262144x1 S262144x512 where
  offsetDims := [1]
  collapsedSliceDims := [0]
  operandBatchingDims := []
  startIndicesBatchingDims := []
  startIndexMap := [0]
  indexVectorDim := 1
  sliceSizes := ![1, 512]
  wf := gather_S8192x512_S262144x1_S262144x512_1_0_n_n_0_1_1512_wf
def scatter_S8192x512_S262144x1_S262144x512_1_0_0_1 : ScatterDims S8192x512 S262144x1 S262144x512 where
  updateWindowDims := [1]
  insertedWindowDims := [0]
  scatterDimsToOperandDims := [0]
  indexVectorDim := 1
  wf := scatter_S8192x512_S262144x1_S262144x512_1_0_0_1_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v24) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x8192 : Shape := ⟨2, ![512, 8192]⟩
abbrev S2x262144 : Shape := ⟨2, ![2, 262144]⟩
abbrev S8192x8192 : Shape := ⟨2, ![8192, 8192]⟩
abbrev S1x262144 : Shape := ⟨2, ![1, 262144]⟩
abbrev S262144 : Shape := ⟨1, ![262144]⟩
abbrev S_ : Shape := ⟨0, ![]⟩
abbrev S8192 : Shape := ⟨1, ![8192]⟩
abbrev S262144x1 : Shape := ⟨2, ![262144, 1]⟩
abbrev S8192x512 : Shape := ⟨2, ![8192, 512]⟩
abbrev S262144x512 : Shape := ⟨2, ![262144, 512]⟩
abbrev S1x8192 : Shape := ⟨2, ![1, 8192]⟩

abbrev nBuf : Space → Nat
  | .hbm => 39
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S2x262144, .i32⟩
  | .hbm, ⟨2, _⟩ => ⟨S8192x8192, .f32⟩
  | .hbm, ⟨3, _⟩ => ⟨S1x262144, .i32⟩
  | .hbm, ⟨4, _⟩ => ⟨S262144, .i32⟩
  | .hbm, ⟨5, _⟩ => ⟨S1x262144, .i32⟩
  | .hbm, ⟨6, _⟩ => ⟨S262144, .i32⟩
  | .hbm, ⟨7, _⟩ => ⟨S_, .f32⟩
  | .hbm, ⟨8, _⟩ => ⟨S262144, .f32⟩
  | .hbm, ⟨9, _⟩ => ⟨S_, .f32⟩
  | .hbm, ⟨10, _⟩ => ⟨S8192, .f32⟩
  | .hbm, ⟨11, _⟩ => ⟨S262144x1, .i32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x512, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x512, .f32⟩
  | .hbm, ⟨26, _⟩ => ⟨S_, .f32⟩
  | .hbm, ⟨27, _⟩ => ⟨S8192x512, .f32⟩
  | .hbm, ⟨28, _⟩ => ⟨S262144x1, .i32⟩
  | .hbm, ⟨29, _⟩ => ⟨S8192x512, .f32⟩
  | .hbm, ⟨30, _⟩ => ⟨S512x8192, .f32⟩
  | .hbm, ⟨31, _⟩ => ⟨S1x8192, .f32⟩
  | .hbm, ⟨32, _⟩ => ⟨S512x8192, .f32⟩
  | .hbm, ⟨33, _⟩ => ⟨S512x8192, .f32⟩
  | .hbm, ⟨34, _⟩ => ⟨S8192x8192, .f32⟩
  | .hbm, ⟨35, _⟩ => ⟨S512x8192, .f32⟩
  | .hbm, ⟨36, _⟩ => ⟨S_, .f32⟩
  | .hbm, ⟨37, _⟩ => ⟨S512x8192, .f32⟩
  | .hbm, ⟨38, _⟩ => ⟨S512x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_call0_cst : Ref sig .tc := ⟨.hbm, 36, rfl⟩
abbrev main_call0_v0 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S_S8192 : S_.BroadcastsInDim S8192 (![] : Fin 0 → Fin S8192.rank)
  bcast_S262144_S262144x1_0 : S262144.BroadcastsInDim S262144x1 (![0] : Fin 1 → Fin S262144x1.rank)
  transposes_S512x8192_S8192x512_1_0 : S512x8192.Transposes [1, 0] S8192x512
  bcast_S_S8192x512 : S_.BroadcastsInDim S8192x512 (![] : Fin 0 → Fin S8192x512.rank)
  transposes_S8192x512_S512x8192_1_0 : S8192x512.Transposes [1, 0] S512x8192
  bcast_S8192_S1x8192_1 : S8192.BroadcastsInDim S1x8192 (![1] : Fin 1 → Fin S1x8192.rank)
  bcast_S1x8192_S512x8192_0_1 : S1x8192.BroadcastsInDim S512x8192 (![0, 1] : Fin 2 → Fin S512x8192.rank)
  transposes_S8192x8192_S8192x8192_1_0 : S8192x8192.Transposes [1, 0] S8192x8192
  bcast_S_S512x8192 : S_.BroadcastsInDim S512x8192 (![] : Fin 0 → Fin S512x8192.rank)
  scatter_S8192_S262144x1_S262144_n_0_0_1_wf : ScatterDims.WF S8192 S262144x1 S262144 [] [0] [0] 1
  gather_S8192x512_S262144x1_S262144x512_1_0_n_n_0_1_1512_wf : GatherDims.WF S8192x512 S262144x1 S262144x512 [1] [0] [] [0] [] 1 ![1, 512]
  scatter_S8192x512_S262144x1_S262144x512_1_0_0_1_wf : ScatterDims.WF S8192x512 S262144x1 S262144x512 [1] [0] [0] 1
  dot_S512x8192_S8192x8192_S512x8192_1_0_0_1_n_n_wf : DotDims.WF S512x8192 S8192x8192 S512x8192 [1] [0] [0] [1] [] []

variable [Facts₀]

def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf
def gather_S8192x512_S262144x1_S262144x512_1_0_n_n_0_1_1512 : GatherDims S8192x512 S262144x1 S262144x512 where
  offsetDims := [1]
  collapsedSliceDims := [0]
  operandBatchingDims := []
  startIndicesBatchingDims := []
  startIndexMap := [0]
  indexVectorDim := 1
  sliceSizes := ![1, 512]
  wf := gather_S8192x512_S262144x1_S262144x512_1_0_n_n_0_1_1512_wf
def scatter_S8192x512_S262144x1_S262144x512_1_0_0_1 : ScatterDims S8192x512 S262144x1 S262144x512 where
  updateWindowDims := [1]
  insertedWindowDims := [0]
  scatterDimsToOperandDims := [0]
  indexVectorDim := 1
  wf := scatter_S8192x512_S262144x1_S262144x512_1_0_0_1_wf
def dot_S512x8192_S8192x8192_S512x8192_1_0_0_1_n_n : DotDims S512x8192 S8192x8192 S512x8192 where
  lhsContracting := [1]
  rhsContracting := [0]
  lhsNonContracting := [0]
  rhsNonContracting := [1]
  lhsBatch := []
  rhsBatch := []
  wf := dot_S512x8192_S8192x8192_S512x8192_1_0_0_1_n_n_wf

class Facts : Prop extends Facts₀ where

variable [Facts]
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.Spec.lean ====
/-
  The value both programs compute. Write h for the [512, 8192] array of degree-normalised neighbour sums and W for
  the [8192, 8192] weight. The layer's result is relu (h · Wᵀ): its entry (d, o) is

      max (∑ n < 8192, h[d, n] · W[o, n]) 0.

  The contraction over the 8192 columns can be taken 512 columns at a time: the sum over all columns is the sum over
  the 16 column blocks of each block's partial sum. Only associativity and commutativity of addition are used, so the
  law holds on the extended reals as it stands, with no finiteness of the entries.
-/
import Idealize.ShloMosaic.PureOps.Ideal
import Idealize.ShloMosaic.Lib.ValueIdx
import proofs.«115174_j91173565759714_1_alg».proof.Proof.LibBlockSums

open scoped BigOperators
open Idealize.ShloMosaic Idealize.ShloMosaic.ValueIdx

noncomputable section

namespace Cert.AggLinear

/-- The shape of h and of the result. -/
abbrev SH : Shape := ⟨2, ![512, 8192]⟩
/-- The shape of the weight. -/
abbrev SW : Shape := ⟨2, ![8192, 8192]⟩

/-- Entry (d, o) of relu (h · Wᵀ). -/
def entry (h : SH.Idx → EReal) (W : SW.Idx → EReal) (d : Fin 512) (o : Fin 8192) : EReal :=
  max (∑ n : Fin 8192, h (ix2 d n) * W (ix2 o n)) 0

/-- relu (h · Wᵀ) as an array. -/
def G (h : SH.Idx → EReal) (W : SW.Idx → EReal) : SH.Idx → EReal :=
  fun i => entry h W ⟨(i 0).val, idx2_lt0 i⟩ ⟨(i 1).val, idx2_lt1 i⟩

theorem G_ix2 (h : SH.Idx → EReal) (W : SW.Idx → EReal) (d : Fin 512) (o : Fin 8192) :
    G h W (ix2 d o) = entry h W d o := rfl

/-- An [a, b] array read at a pair of naturals (zero outside the array): block arithmetic is done on naturals. -/
def rd {a b : ℕ} (f : (⟨2, ![a, b]⟩ : Shape).Idx → EReal) (r s : ℕ) : EReal :=
  if hh : r < a ∧ s < b then f (ix2 ⟨r, hh.1⟩ ⟨s, hh.2⟩) else 0

theorem rd_ix2 {a b : ℕ} (f : (⟨2, ![a, b]⟩ : Shape).Idx → EReal) (r : Fin a) (s : Fin b) :
    rd f r.val s.val = f (ix2 r s) := by
  unfold rd
  rw [dif_pos ⟨r.isLt, s.isLt⟩]

theorem rd_of_lt {a b : ℕ} (f : (⟨2, ![a, b]⟩ : Shape).Idx → EReal) (r s : ℕ) (hr : r < a) (hs : s < b) :
    rd f r s = f (ix2 ⟨r, hr⟩ ⟨s, hs⟩) := by
  unfold rd
  rw [dif_pos ⟨hr, hs⟩]

/-- The partial sum of row d of h against row o of W over column block s (columns 512·s … 512·s + 511). -/
def blockTerm (h : SH.Idx → EReal) (W : SW.Idx → EReal) (d o s : ℕ) : EReal :=
  ∑ j : Fin 512, rd h d (s * 512 + j.val) * rd W o (s * 512 + j.val)

/-- The 16 column blocks' partial sums add up to the whole contraction. -/
theorem sum_blockTerms (h : SH.Idx → EReal) (W : SW.Idx → EReal) (d : Fin 512) (o : Fin 8192) :
    ∑ s ∈ Finset.range 16, blockTerm h W d.val o.val s = ∑ n : Fin 8192, h (ix2 d n) * W (ix2 o n) := by
  rw [Finset.sum_range]
  refine Eq.symm ((Cert.BlockSums.sum_blocks 16 512 (fun n : Fin (16 * 512) => h (ix2 d n) * W (ix2 o n))).trans ?_)
  refine Finset.sum_congr rfl fun t _ => ?_
  unfold blockTerm
  refine Finset.sum_congr rfl fun j _ => ?_
  have hlt : t.val * 512 + j.val < 8192 := by have := t.isLt; have := j.isLt; omega
  rw [rd_of_lt h d.val _ d.isLt hlt, rd_of_lt W o.val _ o.isLt hlt]

/-- An accumulator that starts from zero and receives the 16 block sums one after the other ends, after the
    maximum with zero, at the entry. -/
theorem entry_of_blocks (h : SH.Idx → EReal) (W : SW.Idx → EReal) (d : Fin 512) (o : Fin 8192) :
    max (0 + ∑ s ∈ Finset.range 16, blockTerm h W d.val o.val s) 0 = entry h W d o := by
  rw [zero_add, sum_blockTerms]
  rfl

end Cert.AggLinear

end
-- ==== Proof.RefSide.lean ====
/-
  The reference computes the same function. It transposes the weight, contracts row d of h against column o of the
  transposed weight — that is, against row o of W — over all 8192 columns, and takes the maximum with a zero array:
  entry (d, o) is max (∑ n, h[d, n] · W[o, n]) 0, whatever array h is.
-/
import proofs.«115174_j91173565759714_1_alg».proof.Proof.Gen.ReferenceIdeal.Read
import proofs.«115174_j91173565759714_1_alg».proof.Proof.Spec

open scoped BigOperators

noncomputable section

open Idealize.ShloMosaic Idealize.ShloMosaic.ValueIdx

namespace Cert.AggLinear.Ref

open Cert.ReferenceIdeal Cert.ReferenceIdeal.Read Cert.AggLinear

/-- The reference's result is relu (h · Wᵀ), with h its own array of normalised neighbour sums. -/
theorem ref_eq (x0 : (⟨S512x8192, .f32⟩ : BufTy).Contents (Elt Ideal)) (x1 : (⟨S2x262144, .i32⟩ : BufTy).Contents (Elt Ideal))
    (x2 : (⟨S8192x8192, .f32⟩ : BufTy).Contents (Elt Ideal)) :
    val_main_v27 (F := Ideal) x0 x1 x2 = G (val_main_v24 (F := Ideal) x0 x1) x2 := by
  funext i
  obtain ⟨d, o, rfl⟩ : ∃ (d : Fin 512) (o : Fin 8192), i = ix2 d o := ⟨i 0, i 1, eq_ix2 i⟩
  have e1 : ∀ k : Fin 8192, lidx_main_v26 (ix2 d o) k = ix2 d k := fun k => funext fun a => by
    match a with
    | ⟨0, _⟩ => rfl
    | ⟨1, _⟩ => rfl
  have e2 : ∀ k : Fin 8192, idx_main_v25 (ridx_main_v26 (ix2 d o) k) = ix2 o k := fun k => funext fun a => by
    match a with
    | ⟨0, _⟩ => rfl
    | ⟨1, _⟩ => rfl
  rw [G_ix2, val_main_v27_apply, val_main_v26_apply, val_main_call0_v0_apply, val_main_call0_cst_apply]
  unfold entry
  simp only [val_main_v25_apply, e1, e2, Ideal.maximumf_def, Ideal.ofBits_def, Ideal.ofBits_zero_f32]

end Cert.AggLinear.Ref

end
-- ==== Proof.Pieces.lean ====
/-
  What one run of the kernel body leaves behind, as values. The body keeps a [512, 2048] accumulator between grid
  points. At the first point of a column tile it clears the accumulator and then adds the point's block product; at
  every other point it adds the block product to what the point before left; at the last point of the tile it also
  writes the maximum of the accumulator with zero into the output block. Each statement below reads the stores of one
  control case back as one term over the values the body loaded: a whole-buffer store, read back whole, is its
  payload, and a whole-buffer load of a buffer's contents is those contents.
-/
import proofs.«115174_j91173565759714_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of a whole-buffer rectangle. -/
theorem hz : (![0, 0] : Fin 2 → Nat) = fun _ => 0 := funext fun a => by fin_cases a <;> rfl

/-- First point of a tile: the accumulator is cleared, read back, and receives the block product. -/
theorem acc_A (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S512x2048 .f32) (harg4 : arg4.IsWhole) (arg5 : Memref sig .tc .vmem S512x2048 .f32) (harg5 : arg5.IsWhole) (hc0 : cond0_0 i) (hc1 : ¬cond0_1 i)
    (x0 : Vec F S512x512 .f32) (x1 : Vec F S2048x512 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S512x2048) hz, View.readCov_unit_zero (S := S512x2048) _ hz]
  simp only [View.readAt_eq_ld, harg2.read_unread, harg3.read_unread,
    View.ld_unit_zero (S := S512x512) hz, View.ld_unit_zero (S := S2048x512) hz]

/-- A middle point of a tile: the accumulator receives the block product on top of what it held. -/
theorem acc_B (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S512x2048 .f32) (harg4 : arg4.IsWhole) (arg5 : Memref sig .tc .vmem S512x2048 .f32) (harg5 : arg5.IsWhole) (hc0 : ¬cond0_0 i) (hc1 : ¬cond0_1 i)
    (x0 : Vec F S512x512 .f32) (x1 : Vec F S2048x512 .f32) (xs0 : Vec F S512x2048 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz]
  simp only [View.readAt_eq_ld, harg2.read_unread, harg3.read_unread, harg5.read_unread,
    View.ld_unit_zero (S := S512x512) hz, View.ld_unit_zero (S := S2048x512) hz, View.ld_unit_zero (S := S512x2048) hz]

/-- Last point of a tile, the accumulator: the same update. -/
theorem acc_C (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S512x2048 .f32) (harg4 : arg4.IsWhole) (arg5 : Memref sig .tc .vmem S512x2048 .f32) (harg5 : arg5.IsWhole) (hc0 : ¬cond0_0 i) (hc1 : cond0_1 i)
    (x0 : Vec F S512x512 .f32) (x1 : Vec F S2048x512 .f32) (xs0 : Vec F S512x2048 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread,
    View.ld_unit_zero (S := S512x512) hz, View.ld_unit_zero (S := S2048x512) hz, View.ld_unit_zero (S := S512x2048) hz]

/-- Last point of a tile, the output block: the maximum with zero of the updated accumulator. -/
theorem out_C (c : Dev nD) (i : grid0.Coords) (arg2 : Memref sig .tc .vmem S512x512 .f32) (harg2 : arg2.IsWhole) (arg3 : Memref sig .tc .vmem S2048x512 .f32) (harg3 : arg3.IsWhole) (arg4 : Memref sig .tc .vmem S512x2048 .f32) (harg4 : arg4.IsWhole) (arg5 : Memref sig .tc .vmem S512x2048 .f32) (harg5 : arg5.IsWhole) (hc0 : ¬cond0_0 i) (hc1 : cond0_1 i)
    (x0 : Vec F S512x512 .f32) (x1 : Vec F S2048x512 .f32) (xs0 : Vec F S512x2048 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S512x2048) _ hz]
  simp only [View.readAt_eq_ld, harg2.read_unread, harg3.read_unread, harg5.read_unread,
    View.ld_unit_zero (S := S512x512) hz, View.ld_unit_zero (S := S2048x512) hz, View.ld_unit_zero (S := S512x2048) hz]

end Cert.KernelIdeal.Pieces

end
-- ==== Proof.Payload.lean ====
/-
  The body's three stored values read at an entry, on the extended reals. Rounding to bf16 before the matrix unit is
  the identity there, and the matrix unit's product of a [512, 512] block with a [2048, 512] block, contracted over
  the second axis of both, has at (d, o) the sum over the 512 columns j of l[d, j] · r[o, j]. So the accumulator update
  adds that sum to what the accumulator held, the cleared accumulator holds zero, and the output block holds the
  maximum with zero.
-/
import proofs.«115174_j91173565759714_1_alg».proof.Proof.Gen.KernelIdeal.Skeleton
import Idealize.ShloMosaic.Lib.ValueIdx
import Idealize.ShloMosaic.Lib.Pipeline.Value
import Idealize.ShloMosaic.PureOps.Ideal.Laws

open scoped BigOperators

noncomputable section

open Idealize.ShloMosaic Idealize.ShloMosaic.ValueIdx

namespace Cert.KernelIdeal.Payload

open Cert.KernelIdeal Cert.KernelIdeal.Gen

/-- The left operand's row is the output's row. -/
theorem lhs_0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl

/-- The left operand's column is the contraction index. -/
theorem lhs_1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q

/-- The right operand's row is the output's column. -/
theorem rhs_0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl

/-- The right operand's column is the contraction index. -/
theorem rhs_1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The block product into a zero accumulator, at (d, o): the sum over the 512 columns of l[d, j] · r[o, j]. -/
theorem blockDot_apply (l : FVec Ideal S512x512 .bf16) (r : FVec Ideal S2048x512 .bf16) (d : Fin 512) (o : Fin 2048) :
    matmul dot_S512x512_S2048x512_S512x2048_1_1_0_0_n_n none l r (constant S512x2048 .f32 0x00000000#32) (ix2 d o)
      = ∑ j : Fin 512, l (ix2 d j) * r (ix2 o j) := by
  refine (Ideal.matmul_constant_zero_apply dot_S512x512_S2048x512_S512x2048_1_1_0_0_n_n none l r (ix2 d o)).trans ?_
  rw [← Equiv.sum_comp (ValueIdx.contrEquiv1 dot_S512x512_S2048x512_S512x2048_1_1_0_0_n_n 512 rfl rfl).symm]
  refine Finset.sum_congr rfl fun k _ => ?_
  have hk := ValueIdx.contrEquiv1_symm_val dot_S512x512_S2048x512_S512x2048_1_1_0_0_n_n 512 rfl rfl k
  have el : dot_S512x512_S2048x512_S512x2048_1_1_0_0_n_n.lhsIdx (ix2 d o) ((ValueIdx.contrEquiv1 dot_S512x512_S2048x512_S512x2048_1_1_0_0_n_n 512 rfl rfl).symm k) = ix2 d k := funext fun a => Fin.ext (by
    match a with
    | ⟨0, _⟩ => exact lhs_0 _ _
    | ⟨1, _⟩ => exact (lhs_1 _ _).trans hk)
  have er : dot_S512x512_S2048x512_S512x2048_1_1_0_0_n_n.rhsIdx (ix2 d o) ((ValueIdx.contrEquiv1 dot_S512x512_S2048x512_S512x2048_1_1_0_0_n_n 512 rfl rfl).symm k) = ix2 o k := funext fun a => Fin.ext (by
    match a with
    | ⟨0, _⟩ => exact rhs_0 _ _
    | ⟨1, _⟩ => exact (rhs_1 _ _).trans hk)
  rw [el, er]

/-- The cleared accumulator holds zero. -/
theorem pay1_apply (i : S512x2048.Idx) : k0_pay1 (F := Ideal) i = 0 := by
  unfold k0_pay1
  simp only [shapeCast_self]
  show Ideal.ofBits .f32 0x00000000#32 = 0
  exact Ideal.ofBits_zero_f32

/-- The accumulator update at (d, o): what it held plus the block product's entry. -/
theorem pay2_apply (x0 : FVec Ideal S512x512 .f32) (x1 : FVec Ideal S2048x512 .f32) (acc : FVec Ideal S512x2048 .f32)
    (d : Fin 512) (o : Fin 2048) :
    k0_pay2 (F := Ideal) x0 x1 acc (ix2 d o) = acc (ix2 d o) + ∑ j : Fin 512, x0 (ix2 d j) * x1 (ix2 o j) := by
  unfold k0_pay2
  simp only [shapeCast_self]
  refine (addf_apply _ _ _).trans ?_
  refine congrArg (acc (ix2 d o) + ·) ?_
  exact blockDot_apply _ _ d o

/-- The output block at an entry: the maximum with zero. -/
theorem pay3_apply (v : FVec Ideal S512x2048 .f32) (i : S512x2048.Idx) : k0_pay3 (F := Ideal) v i = max (v i) 0 := by
  unfold k0_pay3
  refine (maximumf_apply _ _ _).trans ?_
  refine congrArg (max (v i) ·) ?_
  show Ideal.ofBits .f32 0x00000000#32 = 0
  exact Ideal.ofBits_zero_f32

end Cert.KernelIdeal.Payload

end
-- ==== Proof.Blocks.lean ====
/-
  Which entries of the arrays a grid point sees. The 64 grid points are numbered output tile by output tile: point t
  works on column tile t / 16 of the result (2048 columns) and on column block t mod 16 of the contraction (512
  columns). Its block of h is all 512 rows and columns 512·(t mod 16) …; its block of W is rows 2048·(t / 16) … and
  the same columns. A block's entry sits in the array at block index × block size + the entry's own coordinate.
-/
import proofs.«115174_j91173565759714_1_alg».proof.Proof.Gen.KernelIdeal.Frame
import proofs.«115174_j91173565759714_1_alg».proof.Proof.Spec
import Idealize.ShloMosaic.Lib.Pipeline.Value

open scoped BigOperators

noncomputable section

open Idealize.ShloMosaic Idealize.ShloMosaic.ValueIdx Idealize.ShloMosaic.TcCoe Idealize.SL.Sem

namespace Cert.KernelIdeal.Blocks

open Cert.KernelIdeal Cert.KernelIdeal.Gen Cert.AggLinear

variable (m : (ℓ : Loc nD τ sig) → Buf (Elt Ideal) ℓ)

/-- The three windows' block indices at point t, decided over the grid. -/
theorem idx_facts : ∀ t : Fin cfg0.N, win0_0.index t (0 : Fin 2) = 0 ∧ win0_0.index t (1 : Fin 2) = t.val % 16
    ∧ win0_1.index t (0 : Fin 2) = t.val / 16 ∧ win0_1.index t (1 : Fin 2) = t.val % 16
    ∧ win0_2.index t (0 : Fin 2) = 0 ∧ win0_2.index t (1 : Fin 2) = t.val / 16 :=
  (by decide +kernel : ∀ t : Fin grid0.N, win0_0.index t (0 : Fin 2) = 0 ∧ win0_0.index t (1 : Fin 2) = t.val % 16
    ∧ win0_1.index t (0 : Fin 2) = t.val / 16 ∧ win0_1.index t (1 : Fin 2) = t.val % 16
    ∧ win0_2.index t (0 : Fin 2) = 0 ∧ win0_2.index t (1 : Fin 2) = t.val / 16)

/-- The h block at point t, entry (d, j): h[d, 512·(t mod 16) + j]. -/
theorem hblk_apply (c : Dev nD) (t : Fin cfg0.N) (d j : Fin 512) :
    (iblk m c 0 t : Vec Ideal S512x512 .f32) (ix2 d j)
      = rd (a := 512) (b := 8192) (V m c main_v24) d.val (t.val % 16 * 512 + j.val) := by
  obtain ⟨e0, e1, -⟩ := idx_facts t
  have hN : t.val < 64 := lt_of_lt_of_eq t.isLt (show cfg0.N = 64 from N_0)
  have hj := j.isLt
  rw [rd_of_lt _ _ _ d.isLt (by omega)]
  show V m c main_v24 (((cfg0.win 0).blk t).view.emb (ix2 d j)) = V m c main_v24 _
  refine congrArg (V m c main_v24) ?_
  funext a; apply Fin.ext
  match a with
  | ⟨0, _⟩ => show win0_0.index t (0 : Fin 2) * 512 + 1 * d.val = d.val; omega
  | ⟨1, _⟩ => show win0_0.index t (1 : Fin 2) * 512 + 1 * j.val = t.val % 16 * 512 + j.val; omega

/-- The W block at point t, entry (o, j): W[2048·(t / 16) + o, 512·(t mod 16) + j]. -/
theorem wblk_apply (c : Dev nD) (t : Fin cfg0.N) (o : Fin 2048) (j : Fin 512) :
    (iblk m c 1 t : Vec Ideal S2048x512 .f32) (ix2 o j)
      = rd (a := 8192) (b := 8192) (V m c main_arg2) (t.val / 16 * 2048 + o.val) (t.val % 16 * 512 + j.val) := by
  obtain ⟨-, -, e2, e3, -⟩ := idx_facts t
  have hN : t.val < 64 := lt_of_lt_of_eq t.isLt (show cfg0.N = 64 from N_0)
  have hj := j.isLt
  have ho := o.isLt
  rw [rd_of_lt _ _ _ (by omega) (by omega)]
  show V m c main_arg2 (((cfg0.win 1).blk t).view.emb (ix2 o j)) = V m c main_arg2 _
  refine congrArg (V m c main_arg2) ?_
  funext a; apply Fin.ext
  match a with
  | ⟨0, _⟩ => show win0_1.index t (0 : Fin 2) * 2048 + 1 * o.val = t.val / 16 * 2048 + o.val; omega
  | ⟨1, _⟩ => show win0_1.index t (1 : Fin 2) * 512 + 1 * j.val = t.val % 16 * 512 + j.val; omega

end Cert.KernelIdeal.Blocks

end
-- ==== Proof.Acc.lean ====
/-
  The accumulator, point by point. Within an output tile's run of 16 points the accumulator starts from zero at the
  first point and receives one block product per point, so after the point at position k of the run it holds, at
  entry (d, o), zero plus the sum of the first k + 1 block terms of row d of h against row 2048·(tile) + o of W.
-/
import proofs.«115174_j91173565759714_1_alg».proof.Proof.Gen.KernelIdeal.Value
import proofs.«115174_j91173565759714_1_alg».proof.Proof.Pieces
import proofs.«115174_j91173565759714_1_alg».proof.Proof.Payload
import proofs.«115174_j91173565759714_1_alg».proof.Proof.Blocks

open scoped BigOperators

noncomputable section

open Idealize.ShloMosaic Idealize.ShloMosaic.ValueIdx Idealize.ShloMosaic.TcCoe Idealize.SL.Sem

namespace Cert.KernelIdeal.Acc

open Cert.KernelIdeal Cert.KernelIdeal.Gen Cert.AggLinear

variable (m : (ℓ : Loc nD τ sig) → Buf (Elt Ideal) ℓ)

/-- Point n's addend at the block entry (d, o): the partial sum over column block n mod 16 of row d of h against
    row 2048·(n / 16) + o of W. -/
def term (c : Dev nD) (n : ℕ) (i : S512x2048.Idx) : EReal :=
  blockTerm (V m c main_v24) (V m c main_arg2) (i 0).val (n / 16 * 2048 + (i 1).val) (n % 16)

/-- The accumulator update at point T adds T's addend. -/
theorem step_apply (c : Dev nD) (T : Fin cfg0.N) (acc : Vec Ideal S512x2048 .f32) (i : S512x2048.Idx) :
    k0_pay2 (F := Ideal) (iblk m c 0 T) (iblk m c 1 T) acc i = acc i + term m c T.val i := by
  obtain ⟨d, o, rfl⟩ : ∃ (d : Fin 512) (o : Fin 2048), i = ix2 d o := ⟨i 0, i 1, eq_ix2 i⟩
  refine (Payload.pay2_apply (iblk m c 0 T) (iblk m c 1 T) acc d o).trans ?_
  refine congrArg (acc (ix2 d o) + ·) ?_
  unfold term blockTerm
  refine Finset.sum_congr rfl fun j _ => ?_
  rw [Blocks.hblk_apply m c T d j, Blocks.wblk_apply m c T o j] <;> rfl

/-- At the first point of a run the accumulator ends at zero plus the point's addend, whatever it held. -/
theorem reset_apply (c : Dev nD) (b : ℕ) (hb : b < cfg0.N) (h0 : b % 16 = 0) (junk : Vec Ideal S512x2048 .f32)
    (i : S512x2048.Idx) :
    Value.scAt0_0 m c b hb junk i = 0 + term m c b i := by
  have h1 : ¬ b % 16 = 15 := by omega
  unfold Value.scAt0_0
  rw [dif_pos h0, dif_neg h1]
  rw [Pieces.acc_A c (grid0.coords ⟨b, hb⟩) (ms0_0 ⟨b, hb⟩) (hs0_0 ⟨b, hb⟩) (ms0_1 ⟨b, hb⟩) (hs0_1 ⟨b, hb⟩) (ms0_2 ⟨b, hb⟩) (hs0_2 ⟨b, hb⟩) scM0_0 (Memref.isWhole_whole _) _ _ (iblk m c 0 ⟨b, hb⟩) (iblk m c 1 ⟨b, hb⟩)]
  refine (step_apply m c ⟨b, hb⟩ _ i).trans ?_
  rw [Payload.pay1_apply] <;> rfl

/-- At every other point of a run it adds the point's addend to what the point before left. -/
theorem step_fold (c : Dev nD) (n : ℕ) (hn : n < cfg0.N) (h0 : ¬ n % 16 = 0) (acc : Vec Ideal S512x2048 .f32)
    (i : S512x2048.Idx) :
    Value.scAt0_0 m c n hn acc i = acc i + term m c n i := by
  unfold Value.scAt0_0
  rw [dif_neg h0]
  by_cases h1 : n % 16 = 15
  · rw [dif_pos h1]
    rw [Pieces.acc_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) _ _ (iblk m c 0 ⟨n, hn⟩) (iblk m c 1 ⟨n, hn⟩) acc]
    exact step_apply m c ⟨n, hn⟩ acc i
  · rw [dif_neg h1]
    rw [Pieces.acc_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) _ _ (iblk m c 0 ⟨n, hn⟩) (iblk m c 1 ⟨n, hn⟩) acc]
    exact step_apply m c ⟨n, hn⟩ acc i

/-- After point t the accumulator holds zero plus the addends of its run's points up to t. -/
theorem acc_apply (c : Dev nD) (t : Fin cfg0.N) (i : S512x2048.Idx) :
    (outsAt0 m c t.val t.isLt).2 i
      = 0 + ∑ s ∈ Finset.range (t.val % 16 + 1), term m c (16 * (t.val / 16) + s) i := by
  have hN : t.val < 64 := lt_of_lt_of_eq t.isLt (show cfg0.N = 64 from N_0)
  rw [Value.soutsAt0_0_eq m c t]
  exact Pipeline.accAt_add_apply (fun n h => Value.scAt0_0 m c n h (VS0_0.read (Elt Ideal) VS0_0.junk)) (Value.scAt0_0 m c)
    (fun _ => 0) (term m c) (16 * (t.val / 16)) 15
    (fun h i => reset_apply m c _ h (by omega) _ i)
    (fun n h acc i hlo hhi => step_fold m c n h (by omega) acc i)
    (t.val % 16) (by omega) _ i

end Cert.KernelIdeal.Acc

end
-- ==== Proof.HostSide.lean ====
/-
  Before the region both programs prepare h with the same host operations: the degree of each node (a scatter-add of
  ones, at least one), the neighbour sums (rows of xᵀ gathered at the column indices and scatter-added at the row
  indices), transposed and divided by the degrees. So the array the region finds as its first operand is the
  reference's own h, as one function of the two arguments x and adj; that function is never opened.
-/
import proofs.«115174_j91173565759714_1_alg».proof.Proof.Gen.KernelIdeal.Frame
import proofs.«115174_j91173565759714_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.HostSide

open Cert.KernelIdeal Cert.KernelIdeal.Gen

variable (m : (ℓ : Loc nD τ sig) → Buf (Elt Ideal) ℓ)

set_option maxHeartbeats 2000000 in
/-- The region's first operand is the reference's h of the same x and adj. -/
theorem h_eq (c : Dev nD) :
    (V m c main_v24 : S512x8192.Idx → EReal)
      = Cert.ReferenceIdeal.Read.val_main_v24 (F := Ideal) (m ((c : Thread nD τ).loc main_arg0)) (m ((c : Thread nD τ).loc main_arg1)) := by
  dsimp only [Gen.V, Gen.hostOps0]
  after_results_simp <;> rfl

end Cert.KernelIdeal.HostSide

end
-- ==== Proof.Final.lean ====
/-
  From blocks to the array. The result's column tile q (2048 columns) is written back once, at the last point of its
  run, 16·q + 15, and holds there the maximum with zero of the accumulator, which by then has received all 16 block
  terms: entry (d, o) of the tile is entry (d, 2048·q + o) of relu (h · Wᵀ). The four tiles cover the result — column o
  lies in tile o / 2048 — so after the run the whole result array is relu (h · Wᵀ).
-/
import proofs.«115174_j91173565759714_1_alg».proof.Proof.Acc
import proofs.«115174_j91173565759714_1_alg».proof.Proof.HostSide

open scoped BigOperators

noncomputable section

open Idealize.ShloMosaic Idealize.ShloMosaic.ValueIdx Idealize.ShloMosaic.TcCoe Idealize.SL.Sem
open Idealize.ShloMosaic.Pipeline (Dat)

namespace Cert.KernelIdeal.Final

open Cert.KernelIdeal Cert.KernelIdeal.Gen Cert.AggLinear

variable (m : (ℓ : Loc nD τ sig) → Buf (Elt Ideal) ℓ) (ρ : Dev nD → PrngReg)

/-- At the last point of a run the output block holds the maximum with zero of the accumulator that point leaves. -/
theorem out_eq_relu_acc (c : Dev nD) (t : Fin cfg0.N) (h1 : t.val % 16 = 15) :
    (outsAt0 m c t.val t.isLt).1 = k0_pay3 (F := Ideal) ((outsAt0 m c t.val t.isLt).2) := by
  have h0 : ¬ t.val % 16 = 0 := by omega
  rw [outsAt0_C m c t h0 h1]
  dsimp only
  rw [Pieces.out_C c (grid0.coords t) (ms0_0 t) (hs0_0 t) (ms0_1 t) (hs0_1 t) (ms0_2 t) (hs0_2 t) scM0_0 (Memref.isWhole_whole _) _ _ (iblk m c 0 t) (iblk m c 1 t) _, Pieces.acc_C c (grid0.coords t) (ms0_0 t) (hs0_0 t) (ms0_1 t) (hs0_1 t) (ms0_2 t) (hs0_2 t) scM0_0 (Memref.isWhole_whole _) _ _ (iblk m c 0 t) (iblk m c 1 t) _]

/-- … which is the entry of relu (h · Wᵀ) in the run's column tile. -/
theorem out_apply (c : Dev nD) (t : Fin cfg0.N) (h1 : t.val % 16 = 15) (d : Fin 512) (o : Fin 2048)
    (hlt : t.val / 16 * 2048 + o.val < 8192) :
    (outsAt0 m c t.val t.isLt).1 (ix2 d o)
      = entry (V m c main_v24) (V m c main_arg2) d ⟨t.val / 16 * 2048 + o.val, hlt⟩ := by
  rw [out_eq_relu_acc m c t h1, Payload.pay3_apply, Acc.acc_apply m c t (ix2 d o), h1]
  refine Eq.trans ?_ (entry_of_blocks (V m c main_v24) (V m c main_arg2) d ⟨t.val / 16 * 2048 + o.val, hlt⟩)
  refine congrArg (fun z => max (0 + z) 0) ?_
  refine Finset.sum_congr rfl fun s hs => ?_
  have hs' : s < 16 := Finset.mem_range.mp hs
  show blockTerm (V m c main_v24) (V m c main_arg2) d.val ((16 * (t.val / 16) + s) / 16 * 2048 + o.val) ((16 * (t.val / 16) + s) % 16) = _
  rw [show (16 * (t.val / 16) + s) / 16 = t.val / 16 by omega, show (16 * (t.val / 16) + s) % 16 = s by omega]

/-- What a last point writes back is its block of relu (h · Wᵀ). -/
theorem flushed_eq (c : Dev nD) (t : Fin cfg0.N) (hf : (cfg0.win 2).flush t = true) :
    (dats m 0 c).flushed 2 t = ((cfg0.win 2).blk t).view.read (Elt Ideal) (G (V m c main_v24) (V m c main_arg2)) := by
  have h1 : t.val % 16 = 15 := (flush0_2 t).mp hf
  have hN : t.val < 64 := lt_of_lt_of_eq t.isLt (show cfg0.N = 64 from N_0)
  obtain ⟨-, -, -, -, e4, e5⟩ := Blocks.idx_facts t
  rw [Value.flushed2 m c t]
  refine funext fun (y : S512x2048.Idx) => ?_
  obtain ⟨d, o, rfl⟩ : ∃ (d : Fin 512) (o : Fin 2048), y = ix2 d o := ⟨y 0, y 1, eq_ix2 y⟩
  have ho := o.isLt
  have hlt : t.val / 16 * 2048 + o.val < 8192 := by omega
  show (outsAt0 m c t.val t.isLt).1 (ix2 d o) = G (V m c main_v24) (V m c main_arg2) (((cfg0.win 2).blk t).view.emb (ix2 d o))
  rw [out_apply m c t h1 d o hlt]
  have hemb : ((cfg0.win 2).blk t).view.emb (ix2 d o) = ix2 d (⟨t.val / 16 * 2048 + o.val, hlt⟩ : Fin 8192) := by
    funext a; apply Fin.ext
    match a with
    | ⟨0, _⟩ => show win0_2.index t (0 : Fin 2) * 512 + 1 * d.val = d.val; omega
    | ⟨1, _⟩ => show win0_2.index t (1 : Fin 2) * 2048 + 1 * o.val = t.val / 16 * 2048 + o.val; omega
  rw [hemb, G_ix2]

/-- An index of the result lies in point t's block iff each coordinate lies in the block's range on its axis. -/
theorem mem_blk (t : Fin cfg0.N) (i : S512x8192.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v25).slice (win0_2.rect t)).set ↔ _
  rw [View.set_slice_whole, Rect.mem_set_unit]
  exact Iff.rfl

/-- Every entry of the result is in the block some last point writes back: column o is in tile o / 2048. -/
theorem cover (i : S512x8192.Idx) :
    ∃ t : Fin cfg0.N, (cfg0.win 2).flush t = true ∧ i ∈ ((cfg0.win 2).blk t).view.set := by
  have hi0 : (i 0).val < 512 := (i 0).isLt
  have hi1 : (i 1).val < 8192 := (i 1).isLt
  have hN : cfg0.N = 64 := N_0
  obtain ⟨t, ht⟩ : ∃ t : Fin cfg0.N, t.val = 16 * ((i 1).val / 2048) + 15 := ⟨⟨16 * ((i 1).val / 2048) + 15, by rw [hN]; omega⟩, rfl⟩
  obtain ⟨-, -, -, -, e4, e5⟩ := Blocks.idx_facts t
  refine ⟨t, (flush0_2 t).mpr (by omega), ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- After the run the result array is relu (h · Wᵀ) of the arrays the region found. -/
theorem final (c : Dev nD) : (dats m 0 c).arrAt 2 cfg0.N = G (V m c main_v24) (V m c main_arg2) :=
  (dats m 0 c).arrAt_eq_of_cover 2 (G (V m c main_v24) (V m c main_arg2)) (fun t hf => flushed_eq m c t hf) cover

/-- … that is, of the reference's h of x and adj, and of the weight as launched. -/
theorem final_args (c : Dev nD) : (dats m 0 c).arrAt 2 cfg0.N
    = G (Cert.ReferenceIdeal.Read.val_main_v24 (F := Ideal) (m ((c : Thread nD τ).loc main_arg0)) (m ((c : Thread nD τ).loc main_arg1)))
        (m ((c : Thread nD τ).loc main_arg2)) := by
  rw [final m c, HostSide.h_eq m c, V_main_arg2 m c]

/-- The kernel's run: the result at relu (h · Wᵀ), the arguments unchanged. -/
theorem run : θ_run defs (onTc (τ := τ) (main (F := Ideal))) ⟨m, fun _ => 0, ρ⟩ fun r => ∀ c : Dev nD,
      r.2.mem ((c : Thread nD τ).loc main_v25)
        = G (Cert.ReferenceIdeal.Read.val_main_v24 (F := Ideal) (m ((c : Thread nD τ).loc main_arg0)) (m ((c : Thread nD τ).loc main_arg1)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_args m c), (h c).2⟩) (Value.run_blocks m ρ)

end Cert.KernelIdeal.Final

end
-- ==== Proof.lean ====
/-
  A graph layer: every node averages its in-neighbours' features and a linear map with a relu follows. With
  h = (segment sums of the gathered columns of x) / max(degree, 1), an array [512, 8192], and W [8192, 8192], the
  result is relu (h · Wᵀ).

  Both programs prepare h with the same host operations, so h enters the comparison as one function of x and adj
  that is never opened. They differ in the product. The reference contracts each row of h against each row of W over
  all 8192 columns at once and takes the maximum with zero. The kernel walks a 4 × 16 grid: for each of 4 column
  tiles of the result (2048 columns) it goes through the 16 column blocks of the contraction (512 columns), keeps a
  [512, 2048] accumulator that it clears at the first block and to which it adds one block product per point, and at
  the last block writes the maximum of the accumulator with zero into the result's tile. On the extended reals the
  rounding of the operands to bf16 is the identity, and zero plus the 16 block sums, added one after the other, is
  the sum over all 8192 columns: addition there is associative and commutative with no side condition, so the
  inputs' finiteness is not used. The two results are therefore equal entry by entry.

  The idealized kernel is the kernel's own text read on the extended reals (no operation was rewritten), so the
  conjunct relating the two is trivial; the three frame conjuncts are the programs' runs with the results dropped.
-/
import proofs.«115174_j91173565759714_1_alg».proof.Defs
import proofs.«115174_j91173565759714_1_alg».proof.Proof.Gen.Kernel
import proofs.«115174_j91173565759714_1_alg».proof.Proof.Gen.Kernel.Frame
import proofs.«115174_j91173565759714_1_alg».proof.Proof.Gen.KernelIdeal
import proofs.«115174_j91173565759714_1_alg».proof.Proof.Gen.KernelIdeal.Frame
import proofs.«115174_j91173565759714_1_alg».proof.Proof.Gen.ReferenceIdeal
import proofs.«115174_j91173565759714_1_alg».proof.Proof.Gen.KernelIdeal.Value
import proofs.«115174_j91173565759714_1_alg».proof.Proof.Gen.ReferenceIdeal.Run
import proofs.«115174_j91173565759714_1_alg».proof.Proof.Gen.ReferenceIdeal.Read
import proofs.«115174_j91173565759714_1_alg».proof.Proof.Gen.Pre_finite_inputs
import proofs.«115174_j91173565759714_1_alg».proof.Proof.RefSide
import proofs.«115174_j91173565759714_1_alg».proof.Proof.Final
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for its reading on the extended reals. -/
theorem preserves : Cert.preserves_Kernel_KernelIdeal := trivial

/-- From arguments that agree, the kernel's result array and the reference's are both relu (h · Wᵀ), with h the
    same function of x and adj on both sides. -/
theorem algebraic : Cert.algebraic_KernelIdeal_ReferenceIdeal := by
  intro m ρ m' ρ' _ hagree
  refine ⟨fun c => Cert.AggLinear.G
      (Cert.ReferenceIdeal.Read.val_main_v24 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.AggLinear.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
